-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)) →
    ∃ (v0 : (c : Dev Cert.KernelIdeal.nD) → Buf (Elt Ideal) ((c.tc : Thread Cert.KernelIdeal.nD Cert.KernelIdeal.τ).loc Cert.KernelIdeal.main_v0)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v0) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v10) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S32x288x64x64 : Shape := ⟨4, ![32, 288, 64, 64]⟩
abbrev S_ : Shape := ⟨0, ![]⟩

class Facts : Prop where
  bcast_S_S32x288x64x64 : S_.BroadcastsInDim S32x288x64x64 (![] : Fin 0 → Fin S32x288x64x64.rank)
  reducesTo_S32x288x64x64_S_d0_1_2_3 : S32x288x64x64.ReducesTo [0, 1, 2, 3] S_
  h_S_ : 0 < S_.numel

variable [Facts]

def fn {F : FTy → Type} [FloatOps F] (main_arg0 : FVec F S32x288x64x64 .f32) : IVec S_ 1 :=
  let main_v0 : FVec F S32x288x64x64 .f32 := Host.absf main_arg0
  let main_cst : FVec F S_ .f32 := constant S_ .f32 0x7F800000#32
  let main_v1 : FVec F S32x288x64x64 .f32 := broadcastInDim S32x288x64x64 ![] bcast_S_S32x288x64x64 main_cst
  let main_v2 : IVec S32x288x64x64 1 := cmpf .olt main_v0 main_v1
  let main_c : IVec S_ 1 := constantI S_ 1 1#1
  let main_v3 : IVec S_ 1 := (fun x v => Host.reduce IntOp.andi x v reducesTo_S32x288x64x64_S_d0_1_2_3 h_S_) main_v2 main_c
  main_v3
-- ==== Kernel.lean ====
abbrev S32x288x64x64 : Shape := ⟨4, ![32, 288, 64, 64]⟩
abbrev S1x288x64x64 : Shape := ⟨4, ![1, 288, 64, 64]⟩
abbrev S32x66x66 : Shape := ⟨3, ![32, 66, 66]⟩
abbrev S1x32x64x64 : Shape := ⟨4, ![1, 32, 64, 64]⟩
abbrev S32x64x64 : Shape := ⟨3, ![32, 64, 64]⟩

abbrev nBuf : Space → Nat
  | .hbm => 2
  | .vmem => 5
  | .smem => 0
  | _ => 0

abbrev bufTy : (tb : Table) → Fin (tcTables nBuf tb) → BufTy
  | .hbm, ⟨0, _⟩ => ⟨S32x288x64x64, .f32⟩
  | .hbm, ⟨1, _⟩ => ⟨S32x288x64x64, .f32⟩
  | .local _ .vmem, ⟨0, _⟩ => ⟨S1x288x64x64, .f32⟩
  | .local _ .vmem, ⟨1, _⟩ => ⟨S1x288x64x64, .f32⟩
  | .local _ .vmem, ⟨2, _⟩ => ⟨S1x288x64x64, .f32⟩
  | .local _ .vmem, ⟨3, _⟩ => ⟨S1x288x64x64, .f32⟩
  | .local _ .vmem, ⟨4, _⟩ => ⟨S32x66x66, .f32⟩
  | _, _ => ⟨S32x288x64x64, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | _, _ => false

abbrev semScoped : Fin 0 → Bool
  | ⟨_, h⟩ => absurd h (Nat.not_lt_zero _)

abbrev dmaSemScoped : Fin 4 → Bool
  | ⟨0, _⟩ => true
  | ⟨1, _⟩ => true
  | ⟨2, _⟩ => true
  | ⟨3, _⟩ => true
  | _ => false

abbrev sig : RefSig :=
  ofTc nBuf bufTy 0 4 bufScoped semScoped dmaSemScoped tileCredit tileCredit_eq_zero tileCredit_pos

abbrev main_arg0 : Ref sig .tc := ⟨.hbm, 0, rfl⟩
abbrev main_v0 : Ref sig .tc := ⟨.hbm, 1, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_scratch0 : Ref sig .tc := ⟨.vmem, 4, rfl⟩
abbrev cc0_sem0_0 : DmaSem sig := 0
abbrev cc0_sem0_1 : DmaSem sig := 1
abbrev cc0_sem1_0 : DmaSem sig := 2
abbrev cc0_sem1_1 : DmaSem sig := 3

abbrev nD : Nat := 1
abbrev τ : Topo := Topo.v7x

variable {F : FTy → Type} [FloatOps F]

abbrev grid0 : Pipeline.Grid := ⟨1, ![32], ![false]⟩

def cc0_transform_0 (i : grid0.Coords) : Fin 4 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![arg0.toNat, c0_i32.toNat, c0_i32_0.toNat, c0_i32_1.toNat]

def cc0_transform_1 (i : grid0.Coords) : Fin 4 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![arg0.toNat, c0_i32.toNat, c0_i32_0.toNat, c0_i32_1.toNat]

abbrev stage0_0 : Fin 2 → Memref sig .tc .vmem S1x288x64x64 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S1x288x64x64 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

class Facts₀ : Prop where
  inb_S32x66x66_S32x66x66_0_0_0 : ∀ a, (![0, 0, 0] : Fin 3 → Nat) a + S32x66x66.size a ≤ S32x66x66.size a
  h_S32x66x66 : 0 < S32x66x66.numel
  shapeCasts_S32x66x66_S32x66x66 : S32x66x66.ShapeCasts S32x66x66
  inb_S1x288x64x64_S1x32x64x64_0_0_0_0 : ∀ a, (![0, 0, 0, 0] : Fin 4 → Nat) a + S1x32x64x64.size a ≤ S1x288x64x64.size a
  h_S1x32x64x64 : 0 < S1x32x64x64.numel
  shapeCasts_S1x32x64x64_S32x64x64 : S1x32x64x64.ShapeCasts S32x64x64
  inb_S32x66x66_S32x64x64_0_1_1 : ∀ a, (![0, 1, 1] : Fin 3 → Nat) a + S32x64x64.size a ≤ S32x66x66.size a
  h_S32x64x64 : 0 < S32x64x64.numel
  shapeCasts_S32x64x64_S32x64x64 : S32x64x64.ShapeCasts S32x64x64
  inb_S32x66x66_S32x64x64_0_0_1 : ∀ a, (![0, 0, 1] : Fin 3 → Nat) a + S32x64x64.size a ≤ S32x66x66.size a
  shapeCasts_S32x64x64_S1x32x64x64 : S32x64x64.ShapeCasts S1x32x64x64
  inb_S1x288x64x64_S1x32x64x64_0_32_0_0 : ∀ a, (![0, 32, 0, 0] : Fin 4 → Nat) a + S1x32x64x64.size a ≤ S1x288x64x64.size a
  inb_S32x66x66_S32x64x64_0_2_1 : ∀ a, (![0, 2, 1] : Fin 3 → Nat) a + S32x64x64.size a ≤ S32x66x66.size a
  inb_S1x288x64x64_S1x32x64x64_0_64_0_0 : ∀ a, (![0, 64, 0, 0] : Fin 4 → Nat) a + S1x32x64x64.size a ≤ S1x288x64x64.size a
  inb_S32x66x66_S32x64x64_0_1_0 : ∀ a, (![0, 1, 0] : Fin 3 → Nat) a + S32x64x64.size a ≤ S32x66x66.size a
  inb_S1x288x64x64_S1x32x64x64_0_96_0_0 : ∀ a, (![0, 96, 0, 0] : Fin 4 → Nat) a + S1x32x64x64.size a ≤ S1x288x64x64.size a
  inb_S32x66x66_S32x64x64_0_1_2 : ∀ a, (![0, 1, 2] : Fin 3 → Nat) a + S32x64x64.size a ≤ S32x66x66.size a
  inb_S1x288x64x64_S1x32x64x64_0_128_0_0 : ∀ a, (![0, 128, 0, 0] : Fin 4 → Nat) a + S1x32x64x64.size a ≤ S1x288x64x64.size a
  inb_S32x66x66_S32x64x64_0_0_0 : ∀ a, (![0, 0, 0] : Fin 3 → Nat) a + S32x64x64.size a ≤ S32x66x66.size a
  inb_S1x288x64x64_S1x32x64x64_0_160_0_0 : ∀ a, (![0, 160, 0, 0] : Fin 4 → Nat) a + S1x32x64x64.size a ≤ S1x288x64x64.size a
  inb_S32x66x66_S32x64x64_0_0_2 : ∀ a, (![0, 0, 2] : Fin 3 → Nat) a + S32x64x64.size a ≤ S32x66x66.size a
  inb_S1x288x64x64_S1x32x64x64_0_192_0_0 : ∀ a, (![0, 192, 0, 0] : Fin 4 → Nat) a + S1x32x64x64.size a ≤ S1x288x64x64.size a
  inb_S32x66x66_S32x64x64_0_2_0 : ∀ a, (![0, 2, 0] : Fin 3 → Nat) a + S32x64x64.size a ≤ S32x66x66.size a
  inb_S1x288x64x64_S1x32x64x64_0_224_0_0 : ∀ a, (![0, 224, 0, 0] : Fin 4 → Nat) a + S1x32x64x64.size a ≤ S1x288x64x64.size a
  inb_S32x66x66_S32x64x64_0_2_2 : ∀ a, (![0, 2, 2] : Fin 3 → Nat) a + S32x64x64.size a ≤ S32x66x66.size a
  inb_S1x288x64x64_S1x32x64x64_0_256_0_0 : ∀ a, (![0, 256, 0, 0] : Fin 4 → Nat) a + S1x32x64x64.size a ≤ S1x288x64x64.size a
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S1x288x64x64.size a ≤ S32x288x64x64.size a
  hwx0_0 : ∀ i : grid0.Coords, EltTy.bits .f32 = 32 ∨ (Rect.block (s := S32x288x64x64) S1x288x64x64.size (cc0_transform_0 i) (hinb0_0 i)).WholeWords (EltTy.packing .f32)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hinb0_1 : ∀ (i : grid0.Coords) a, (cc0_transform_1 i a + 1) * S1x288x64x64.size a ≤ S32x288x64x64.size a
  hwx0_1 : ∀ i : grid0.Coords, EltTy.bits .f32 = 32 ∨ (Rect.block (s := S32x288x64x64) S1x288x64x64.size (cc0_transform_1 i) (hinb0_1 i)).WholeWords (EltTy.packing .f32)

variable [Facts₀]

abbrev win0_0 : Pipeline.Window sig grid0 :=
  Pipeline.Window.ofSpec (Memref.whole main_arg0) S1x288x64x64.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_v0) S1x288x64x64.size cc0_transform_1 reads0_1 true false 2 stage0_1 sem0_1
    hrank0 hreads0_1 hinb0_1 nbuf0_1 (Memref.isWhole_whole _) hwx0_1 hstage0_1

abbrev win0 : Fin 2 → Pipeline.Window sig grid0 := fun | 0 => win0_0 | 1 => win0_1 | ⟨_ + 2, h⟩ => absurd h (Nat.not_lt.2 (Nat.le_add_left _ _))
abbrev spec0 : Fin 2 → Pipeline.WinSpec sig grid0.rank := fun w => (win0 w).toWinSpec

class Facts : Prop extends Facts₀ where

variable [Facts]
-- ==== ReferenceIdeal.lean ====
abbrev S32x288x64x64 : Shape := ⟨4, ![32, 288, 64, 64]⟩
abbrev S_ : Shape := ⟨0, ![]⟩
abbrev S32x288x66x66 : Shape := ⟨4, ![32, 288, 66, 66]⟩
abbrev S32x32x64x64 : Shape := ⟨4, ![32, 32, 64, 64]⟩

abbrev nBuf : Space → Nat
  | .hbm => 15
  | .vmem => 0
  | .smem => 0
  | _ => 0

abbrev bufTy : (tb : Table) → Fin (tcTables nBuf tb) → BufTy
  | .hbm, ⟨0, _⟩ => ⟨S32x288x64x64, .f32⟩
  | .hbm, ⟨1, _⟩ => ⟨S_, .i32⟩
  | .hbm, ⟨2, _⟩ => ⟨S_, .f32⟩
  | .hbm, ⟨3, _⟩ => ⟨S32x288x66x66, .f32⟩
  | .hbm, ⟨4, _⟩ => ⟨S32x32x64x64, .f32⟩
  | .hbm, ⟨5, _⟩ => ⟨S32x32x64x64, .f32⟩
  | .hbm, ⟨6, _⟩ => ⟨S32x32x64x64, .f32⟩
  | .hbm, ⟨7, _⟩ => ⟨S32x32x64x64, .f32⟩
  | .hbm, ⟨8, _⟩ => ⟨S32x32x64x64, .f32⟩
  | .hbm, ⟨9, _⟩ => ⟨S32x32x64x64, .f32⟩
  | .hbm, ⟨10, _⟩ => ⟨S32x32x64x64, .f32⟩
  | .hbm, ⟨11, _⟩ => ⟨S32x32x64x64, .f32⟩
  | .hbm, ⟨12, _⟩ => ⟨S_, .f32⟩
  | .hbm, ⟨13, _⟩ => ⟨S32x32x64x64, .f32⟩
  | .hbm, ⟨14, _⟩ => ⟨S32x288x64x64, .f32⟩
  | _, _ => ⟨S32x288x64x64, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_c : Ref sig .tc := ⟨.hbm, 1, rfl⟩
abbrev main_call0_v0 : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩
abbrev main_v5 : Ref sig .tc := ⟨.hbm, 8, rfl⟩
abbrev main_v6 : Ref sig .tc := ⟨.hbm, 9, rfl⟩
abbrev main_v7 : Ref sig .tc := ⟨.hbm, 10, rfl⟩
abbrev main_v8 : Ref sig .tc := ⟨.hbm, 11, rfl⟩
abbrev main_cst : Ref sig .tc := ⟨.hbm, 12, rfl⟩
abbrev main_v9 : Ref sig .tc := ⟨.hbm, 13, rfl⟩
abbrev main_v10 : Ref sig .tc := ⟨.hbm, 14, rfl⟩

abbrev nD : Nat := 1
abbrev τ : Topo := Topo.v7x

variable {F : FTy → Type} [FloatOps F]

class Facts₀ : Prop where
  pads_S32x288x64x64_S32x288x66x66_000_000_110_110 : S32x288x64x64.Pads (![0, 0, 1, 1] : Fin 4 → Nat) ![0, 0, 1, 1] ![0, 0, 0, 0] S32x288x66x66
  h_S_ : 0 < S_.numel
  slices_S32x288x66x66_S32x32x64x64_0_0_0_1 : S32x288x66x66.Slices ![0, 0, 0, 1] S32x32x64x64
  slices_S32x288x66x66_S32x32x64x64_0_32_2_1 : S32x288x66x66.Slices ![0, 32, 2, 1] S32x32x64x64
  slices_S32x288x66x66_S32x32x64x64_0_64_1_0 : S32x288x66x66.Slices ![0, 64, 1, 0] S32x32x64x64
  slices_S32x288x66x66_S32x32x64x64_0_96_1_2 : S32x288x66x66.Slices ![0, 96, 1, 2] S32x32x64x64
  slices_S32x288x66x66_S32x32x64x64_0_128_0_0 : S32x288x66x66.Slices ![0, 128, 0, 0] S32x32x64x64
  slices_S32x288x66x66_S32x32x64x64_0_160_0_2 : S32x288x66x66.Slices ![0, 160, 0, 2] S32x32x64x64
  slices_S32x288x66x66_S32x32x64x64_0_192_2_0 : S32x288x66x66.Slices ![0, 192, 2, 0] S32x32x64x64
  slices_S32x288x66x66_S32x32x64x64_0_224_2_2 : S32x288x66x66.Slices ![0, 224, 2, 2] S32x32x64x64
  bcast_S_S32x32x64x64 : S_.BroadcastsInDim S32x32x64x64 (![] : Fin 0 → Fin S32x32x64x64.rank)
  concatenates_S32x32x64x64_S32x32x64x64_S32x32x64x64_S32x32x64x64_S32x32x64x64_S32x32x64x64_S32x32x64x64_S32x32x64x64_S32x32x64x64_S32x288x64x64_d1 : Shape.Concatenates [S32x32x64x64, S32x32x64x64, S32x32x64x64, S32x32x64x64, S32x32x64x64, S32x32x64x64, S32x32x64x64, S32x32x64x64, S32x32x64x64] S32x288x64x64 1

variable [Facts₀]

class Facts : Prop extends Facts₀ where

variable [Facts]
-- ==== Proof.ShiftSpec.lean ====
/-
  The channel-grouped spatial shift, as one function of the input array.

  The 288 channels fall into nine groups of 32. Group `g < 8` is the input's group `g` translated by one of the eight
  non-zero offsets `(dh, dw) ∈ {-1, 0, 1}²`, reading zero where the translated position leaves the 64 × 64 image; the
  ninth group is zero. Writing the image zero-padded by one row and one column on every side (`padRead`: the padded
  image at padded coordinates `hp, wp ∈ [0, 66)`), output position `(h, w)` of group `g` reads the padded image at
  `(offH g + h, offW g + w)` with `offH g = 1 + dh`, `offW g = 1 + dw`.

  Nothing here depends on the element type beyond a chosen zero `z`, nor on the batch extent `B`: the function acts on
  each batch entry separately, so a block of one batch entry (`B = 1`) of the result is the function of that block of the
  input (`shifted_block`).
-/
import Idealize.ShloMosaic.Lib.ValueIdx

namespace Cert.ShiftSpec

open Idealize.ShloMosaic Idealize.ShloMosaic.ValueIdx

variable {α : Type}

/-- Row offset `1 + dh` of group `g` in the padded image, for the offsets
    `(-1,0), (1,0), (0,-1), (0,1), (-1,-1), (-1,1), (1,-1), (1,1)` in this order. -/
def offH : Nat → Nat
  | 0 => 0 | 1 => 2 | 2 => 1 | 3 => 1 | 4 => 0 | 5 => 0 | 6 => 2 | _ => 2

/-- Column offset `1 + dw` of group `g` in the padded image. -/
def offW : Nat → Nat
  | 0 => 1 | 1 => 1 | 2 => 0 | 3 => 2 | 4 => 0 | 5 => 2 | 6 => 0 | _ => 2

theorem offH_le (g : Nat) : offH g ≤ 2 := by unfold offH; split <;> omega
theorem offW_le (g : Nat) : offW g ≤ 2 := by unfold offW; split <;> omega

/-- The image of batch entry `b`, channel `c`, zero-padded by one on each side of both spatial axes, read at the padded
    coordinates `(hp, wp)`: the image at `(hp - 1, wp - 1)` inside the frame `1 ≤ hp, wp ≤ 64`, and `z` on the frame. -/
def padRead {B : Nat} (z : α) (X : (⟨4, ![B, 288, 64, 64]⟩ : Shape).Idx → α) (b : Fin B) (c : Fin 288) (hp wp : Nat) : α :=
  if h : (1 ≤ hp ∧ hp ≤ 64) ∧ (1 ≤ wp ∧ wp ≤ 64) then X (ix4 b c ⟨hp - 1, by omega⟩ ⟨wp - 1, by omega⟩) else z

theorem padRead_inside {B : Nat} (z : α) (X : (⟨4, ![B, 288, 64, 64]⟩ : Shape).Idx → α) (b : Fin B) (c : Fin 288) (hp wp : Nat)
    (h : (1 ≤ hp ∧ hp ≤ 64) ∧ (1 ≤ wp ∧ wp ≤ 64)) :
    padRead z X b c hp wp = X (ix4 b c ⟨hp - 1, by omega⟩ ⟨wp - 1, by omega⟩) := dif_pos h

theorem padRead_frame {B : Nat} (z : α) (X : (⟨4, ![B, 288, 64, 64]⟩ : Shape).Idx → α) (b : Fin B) (c : Fin 288) (hp wp : Nat)
    (h : ¬((1 ≤ hp ∧ hp ≤ 64) ∧ (1 ≤ wp ∧ wp ≤ 64))) :
    padRead z X b c hp wp = z := dif_neg h

/-- The shifted array at `(b, c, h, w)`: channel `c` of group `c / 32 < 8` reads the padded image at the group's offsets;
    the channels from 256 on are zero. -/
def shiftAt {B : Nat} (z : α) (X : (⟨4, ![B, 288, 64, 64]⟩ : Shape).Idx → α) (b : Fin B) (c : Fin 288) (h w : Fin 64) : α :=
  if c.val < 256 then padRead z X b c (offH (c.val / 32) + h.val) (offW (c.val / 32) + w.val) else z

/-- The channel-grouped shift of the whole array. -/
def shifted {B : Nat} (z : α) (X : (⟨4, ![B, 288, 64, 64]⟩ : Shape).Idx → α) : (⟨4, ![B, 288, 64, 64]⟩ : Shape).Idx → α :=
  fun j => shiftAt z X (j 0) (j 1) (j 2) (j 3)

/-- A channel of one of the eight shifted groups reads the padded image at its group's offsets. -/
theorem shiftAt_group {B : Nat} (z : α) (X : (⟨4, ![B, 288, 64, 64]⟩ : Shape).Idx → α) (b : Fin B) (c : Fin 288) (h w : Fin 64)
    (g : Nat) (hg : g < 8) (hc : c.val / 32 = g) :
    shiftAt z X b c h w = padRead z X b c (offH g + h.val) (offW g + w.val) := by
  unfold shiftAt
  rw [if_pos (by omega), hc]

/-- A channel of the ninth group reads zero. -/
theorem shiftAt_rest {B : Nat} (z : α) (X : (⟨4, ![B, 288, 64, 64]⟩ : Shape).Idx → α) (b : Fin B) (c : Fin 288) (h w : Fin 64)
    (hc : 256 ≤ c.val) : shiftAt z X b c h w = z := by
  unfold shiftAt
  rw [if_neg (by omega)]

theorem shifted_apply {B : Nat} (z : α) (X : (⟨4, ![B, 288, 64, 64]⟩ : Shape).Idx → α) (b : Fin B) (c : Fin 288) (h w : Fin 64) :
    shifted z X (ix4 b c h w) = shiftAt z X b c h w := rfl

/-- The shift acts on each batch entry by itself: at batch entry `b` it is the shift of the one-entry array holding that
    entry. -/
theorem shifted_block {B : Nat} (z : α) (X : (⟨4, ![B, 288, 64, 64]⟩ : Shape).Idx → α)
    (x : (⟨4, ![1, 288, 64, 64]⟩ : Shape).Idx → α) (b : Fin B)
    (hx : ∀ (c : Fin 288) (h w : Fin 64), x (ix4 (0 : Fin 1) c h w) = X (ix4 b c h w))
    (u : Fin 1) (c : Fin 288) (h w : Fin 64) :
    shifted z X (ix4 b c h w) = shifted z x (ix4 u c h w) := by
  obtain rfl : u = 0 := Subsingleton.elim _ _
  simp only [shifted_apply, shiftAt, padRead, hx]

end Cert.ShiftSpec
-- ==== Proof.ScratchPad.lean ====
/-
  A zero-padded image built in a 32 × 66 × 66 buffer by two stores, read at an index.

  The buffer is first filled whole (with zeros, in the use made of it) and then its interior `[1, 65) × [1, 65)` of every
  channel is overwritten with a 32 × 64 × 64 image. Whatever was stored before these two stores, the buffer then reads,
  at `(k, hp, wp)`, the image at `(k, hp - 1, wp - 1)` when `1 ≤ hp, wp ≤ 64` and the fill on the frame: it is the
  image padded by one row and one column on every side.
-/
import Idealize.ShloMosaic.Lib.Pipeline.Value
import Idealize.ShloMosaic.Lib.ValueIdx

namespace Cert.ScratchPad

open Idealize.ShloMosaic Idealize.ShloMosaic.ValueIdx

variable {Val : EltTy → Type} [∀ e, Nonempty (Val e)] {e : EltTy}

/-- The padded buffer's shape. -/
abbrev Sp : Shape := ⟨3, ![32, 66, 66]⟩

/-- A position inside the frame is the interior rectangle's own position one row up and one column left. -/
theorem interior_emb (inb11 : ∀ a, (![0, 1, 1] : Fin 3 → Nat) a + (![32, 64, 64] : Fin 3 → Nat) a ≤ Sp.size a)
    (k : Fin 32) (hp wp : Fin 66) (h : (1 ≤ hp.val ∧ hp.val ≤ 64) ∧ (1 ≤ wp.val ∧ wp.val ≤ 64)) :
    (ix3 k hp wp : Sp.Idx)
      = (Rect.unit (s := Sp) ![0, 1, 1] ![32, 64, 64] inb11).emb (ix3 k ⟨hp.val - 1, by omega⟩ ⟨wp.val - 1, by omega⟩) :=
  funext fun a => Fin.ext (by
    match a with
    | ⟨0, _⟩ => show k.val = 0 + 1 * k.val; omega
    | ⟨1, _⟩ => show hp.val = 1 + 1 * (hp.val - 1); omega
    | ⟨2, _⟩ => show wp.val = 1 + 1 * (wp.val - 1); omega)

/-- A position on the frame is outside the interior rectangle. -/
theorem frame_not_mem (inb11 : ∀ a, (![0, 1, 1] : Fin 3 → Nat) a + (![32, 64, 64] : Fin 3 → Nat) a ≤ Sp.size a)
    (k : Fin 32) (hp wp : Fin 66) (h : ¬((1 ≤ hp.val ∧ hp.val ≤ 64) ∧ (1 ≤ wp.val ∧ wp.val ≤ 64))) :
    (ix3 k hp wp : Sp.Idx) ∉ (Rect.unit (s := Sp) ![0, 1, 1] ![32, 64, 64] inb11).set := by
  intro hmem
  have hm := Rect.mem_set_unit.mp hmem
  have h1 : 1 ≤ hp.val ∧ hp.val < 1 + 64 := hm (1 : Fin 3)
  have h2 : 1 ≤ wp.val ∧ wp.val < 1 + 64 := hm (2 : Fin 3)
  exact h ⟨⟨h1.1, by omega⟩, ⟨h2.1, by omega⟩⟩

/-- Every position is the whole rectangle's own position. -/
theorem whole_emb (inb00 : ∀ a, (![0, 0, 0] : Fin 3 → Nat) a + (![32, 66, 66] : Fin 3 → Nat) a ≤ Sp.size a)
    (k : Fin 32) (hp wp : Fin 66) :
    (ix3 k hp wp : Sp.Idx) = (Rect.unit (s := Sp) ![0, 0, 0] ![32, 66, 66] inb00).emb (ix3 k hp wp) :=
  funext fun a => Fin.ext (by
    match a with
    | ⟨0, _⟩ => show k.val = 0 + 1 * k.val; omega
    | ⟨1, _⟩ => show hp.val = 0 + 1 * hp.val; omega
    | ⟨2, _⟩ => show wp.val = 0 + 1 * wp.val; omega)

/-- Inside the frame, the last store (the image into the interior) is what is read: position `(hp, wp)` of the buffer is
    position `(hp - 1, wp - 1)` of the image. -/
theorem canon_interior (img : (⟨3, ![32, 64, 64]⟩ : Shape).Idx → Val e) (fill : Sp.Idx → Val e)
    (L : List (View.Piece Val Sp e))
    (inb11 : ∀ a, (![0, 1, 1] : Fin 3 → Nat) a + (![32, 64, 64] : Fin 3 → Nat) a ≤ Sp.size a)
    (inb00 : ∀ a, (![0, 0, 0] : Fin 3 → Nat) a + (![32, 66, 66] : Fin 3 → Nat) a ≤ Sp.size a)
    (k : Fin 32) (hp wp : Fin 66) (h : (1 ≤ hp.val ∧ hp.val ≤ 64) ∧ (1 ≤ wp.val ∧ wp.val ≤ 64)) :
    View.canon (⟨Rect.unit ![0, 1, 1] ![32, 64, 64] inb11, img⟩ :: ⟨Rect.unit ![0, 0, 0] ![32, 66, 66] inb00, fill⟩ :: L)
        (ix3 k hp wp)
      = img (ix3 k ⟨hp.val - 1, by omega⟩ ⟨wp.val - 1, by omega⟩) :=
  (congrArg _ (interior_emb inb11 k hp wp h)).trans
    (View.canon_cons_emb (Rect.unit (s := Sp) ![0, 1, 1] ![32, 64, 64] inb11) img _ _)

/-- On the frame, the interior store does not reach, and the fill before it is what is read. -/
theorem canon_frame (img : (⟨3, ![32, 64, 64]⟩ : Shape).Idx → Val e) (fill : Sp.Idx → Val e)
    (L : List (View.Piece Val Sp e))
    (inb11 : ∀ a, (![0, 1, 1] : Fin 3 → Nat) a + (![32, 64, 64] : Fin 3 → Nat) a ≤ Sp.size a)
    (inb00 : ∀ a, (![0, 0, 0] : Fin 3 → Nat) a + (![32, 66, 66] : Fin 3 → Nat) a ≤ Sp.size a)
    (k : Fin 32) (hp wp : Fin 66) (h : ¬((1 ≤ hp.val ∧ hp.val ≤ 64) ∧ (1 ≤ wp.val ∧ wp.val ≤ 64))) :
    View.canon (⟨Rect.unit ![0, 1, 1] ![32, 64, 64] inb11, img⟩ :: ⟨Rect.unit ![0, 0, 0] ![32, 66, 66] inb00, fill⟩ :: L)
        (ix3 k hp wp)
      = fill (ix3 k hp wp) :=
  (View.canon_cons_of_not_mem (⟨Rect.unit (s := Sp) ![0, 1, 1] ![32, 64, 64] inb11, img⟩ : View.Piece Val Sp e)
      ((⟨Rect.unit (s := Sp) ![0, 0, 0] ![32, 66, 66] inb00, fill⟩ : View.Piece Val Sp e) :: L)
      (frame_not_mem inb11 k hp wp h)).trans
    ((congrArg _ (whole_emb inb00 k hp wp)).trans
      (View.canon_cons_emb (Rect.unit (s := Sp) ![0, 0, 0] ![32, 66, 66] inb00) fill L (ix3 k hp wp)))

end Cert.ScratchPad
-- ==== Proof.KernelPiece.lean ====
/-
  One group of the kernel's body, read at an index.

  For each of the eight shifted groups the body fills the 32 × 66 × 66 scratch buffer with zeros, copies the group's 32
  channels of the input block into the buffer's interior, reads the buffer back through the 32 × 64 × 64 window at the
  group's offsets `(offH g, offW g)` and stores that into the group's channels of the output block. The buffer between
  the two stores and the read is the group's image zero-padded by one on each side (Proof/ScratchPad.lean), so what is
  stored at `(k, h, w)` of the group is the padded image at `(offH g + h, offW g + w)`: the shifted block
  (Proof/ShiftSpec.lean) at channel `32 g + k`.
-/
import proofs.«152308_j34110630265566_1_alg».proof.Proof.Gen.KernelIdeal.Frame
import proofs.«152308_j34110630265566_1_alg».proof.Proof.ShiftSpec
import proofs.«152308_j34110630265566_1_alg».proof.Proof.ScratchPad
import Idealize.ShloMosaic.Lib.ValueLayout
import Idealize.ShloMosaic.Lib.Pipeline.Value

noncomputable section

namespace Cert.KernelIdeal.BlockValue

open Cert.KernelIdeal Idealize.ShloMosaic Idealize.ShloMosaic.ValueIdx Cert.ShiftSpec

variable {F : FTy → Type} [FloatOps F]

/-- What group `g`'s store leaves in the output block is the shifted block there: at `(k, h, w)` of the stored piece,
    the padded image of channel `32 g + k` at `(offH g + h, offW g + w)`. The piece is spelt as the run finds it: the
    scratch buffer's two last stores (the image into the interior over a whole fill `fill`, which is `z` everywhere), read
    back through the window at offsets `(oh, ow)`; earlier stores `L` to the buffer do not matter. -/
theorem group_piece
    (a1 : Memref sig .tc .vmem S1x288x64x64 .f32) (h1 : a1.IsWhole) (v3 : View sig .tc .vmem S32x66x66 .f32)
    (x : Vec F S1x288x64x64 .f32) (z : Elt F .f32)
    (g co oh ow : Nat) (hg : g < 8) (hco : co = 32 * g) (hoh : oh = offH g) (how : ow = offW g)
    (fill : Vec F S32x66x66 .f32) (hfill : ∀ j, fill j = z)
    (L : List (View.Piece (Elt F) S32x66x66 .f32))
    (inbI : ∀ a, (![0, co, 0, 0] : Fin 4 → Nat) a + (![1, 32, 64, 64] : Fin 4 → Nat) a ≤ S1x288x64x64.size a)
    (inb11 : ∀ a, (![0, 1, 1] : Fin 3 → Nat) a + (![32, 64, 64] : Fin 3 → Nat) a ≤ S32x66x66.size a)
    (inb00 : ∀ a, (![0, 0, 0] : Fin 3 → Nat) a + (![32, 66, 66] : Fin 3 → Nat) a ≤ S32x66x66.size a)
    (inbB : ∀ a, (![0, oh, ow] : Fin 3 → Nat) a + (![32, 64, 64] : Fin 3 → Nat) a ≤ S32x66x66.size a)
    (hc1 : S1x32x64x64.ShapeCasts S32x64x64) (hc2 : S32x64x64.ShapeCasts S32x64x64)
    (hc3 : S32x64x64.ShapeCasts S1x32x64x64)
    (y : (⟨4, ![1, 32, 64, 64]⟩ : Shape).Idx) :
    shapeCast S1x32x64x64
        (v3.readCov
          (⟨Rect.unit (s := S32x66x66) ![0, 1, 1] ![32, 64, 64] inb11,
              shapeCast S32x64x64 (shapeCast S32x64x64
                (View.readAt (Elt F) a1.view (Rect.unit (s := S1x288x64x64) ![0, co, 0, 0] ![1, 32, 64, 64] inbI).toLoadRect
                  (h1.unread x) : Vec F S1x32x64x64 .f32)
                hc1) hc2⟩
            :: ⟨Rect.unit (s := S32x66x66) ![0, 0, 0] ![32, 66, 66] inb00, fill⟩ :: L)
          (Rect.unit (s := S32x66x66) ![0, oh, ow] ![32, 64, 64] inbB).toLoadRect : Vec F S32x64x64 .f32) hc3 y
      = shifted z x ((Rect.unit (s := S1x288x64x64) ![0, co, 0, 0] ![1, 32, 64, 64] inbI).emb y) := by
  obtain ⟨u, k, h, w, rfl⟩ : ∃ (u : Fin 1) (k : Fin 32) (h w : Fin 64), y = ix4 u k h w := ⟨y 0, y 1, y 2, y 3, eq_ix4 y⟩
  have hoh2 : oh ≤ 2 := hoh ▸ offH_le g
  have how2 : ow ≤ 2 := how ▸ offW_le g
  have hu : u.val = 0 := by omega
  -- the stored piece's position in the block
  have eO : (Rect.unit (s := S1x288x64x64) ![0, co, 0, 0] ![1, 32, 64, 64] inbI).emb (ix4 u k h w)
      = ix4 (0 : Fin 1) (⟨co + k.val, by omega⟩ : Fin 288) h w :=
    funext fun a => Fin.ext (by
      match a with
      | ⟨0, _⟩ => show 0 + 1 * u.val = 0; omega
      | ⟨1, _⟩ => show co + 1 * k.val = co + k.val; omega
      | ⟨2, _⟩ => show 0 + 1 * h.val = h.val; omega
      | ⟨3, _⟩ => show 0 + 1 * w.val = w.val; omega)
  rw [eO, shifted_apply, shiftAt_group z x 0 _ h w g hg (by show (co + k.val) / 32 = g; omega), ← hoh, ← how]
  -- the window's position in the scratch buffer
  have eB : (Rect.unit (s := S32x66x66) ![0, oh, ow] ![32, 64, 64] inbB).toLoadRect.idx (ix3 k h w)
      = ix3 k (⟨oh + h.val, by omega⟩ : Fin 66) (⟨ow + w.val, by omega⟩ : Fin 66) :=
    funext fun a => Fin.ext (by
      match a with
      | ⟨0, _⟩ => show 0 + 1 * k.val = k.val; omega
      | ⟨1, _⟩ => show oh + 1 * h.val = oh + h.val; omega
      | ⟨2, _⟩ => show ow + 1 * w.val = ow + w.val; omega)
  rw [shapeCast_abc_1abc_apply, View.readCov_eq_canon']
  show View.canon _ ((Rect.unit (s := S32x66x66) ![0, oh, ow] ![32, 64, 64] inbB).toLoadRect.idx (ix3 k h w)) = _
  rw [eB]
  by_cases hin : (1 ≤ oh + h.val ∧ oh + h.val ≤ 64) ∧ (1 ≤ ow + w.val ∧ ow + w.val ≤ 64)
  · rw [padRead_inside z x 0 _ _ _ hin]
    refine (ScratchPad.canon_interior _ fill L inb11 inb00 k ⟨oh + h.val, by omega⟩ ⟨ow + w.val, by omega⟩ hin).trans ?_
    rw [shapeCast_self, shapeCast_1abc_abc_apply, View.readAt_eq_ld, h1.read_unread]
    show x ((Rect.unit (s := S1x288x64x64) ![0, co, 0, 0] ![1, 32, 64, 64] inbI).toLoadRect.idx _) = _
    refine congrArg x (funext fun a => Fin.ext ?_)
    match a with
    | ⟨0, _⟩ => show 0 + 1 * 0 = 0; omega
    | ⟨1, _⟩ => show co + 1 * k.val = co + k.val; omega
    | ⟨2, _⟩ => show 0 + 1 * (oh + h.val - 1) = oh + h.val - 1; omega
    | ⟨3, _⟩ => show 0 + 1 * (ow + w.val - 1) = ow + w.val - 1; omega
  · rw [padRead_frame z x 0 _ _ _ hin]
    exact (ScratchPad.canon_frame _ fill L inb11 inb00 k ⟨oh + h.val, by omega⟩ ⟨ow + w.val, by omega⟩ hin).trans (hfill _)

end Cert.KernelIdeal.BlockValue

end
-- ==== Proof.KernelBlock.lean ====
/-
  What the kernel's body leaves in the output block: the shifted input block.

  The body writes the output block in nine stores of 32 channels each, which tile it. The first eight are the shifted
  groups (Proof/KernelPiece.lean); the ninth stores zeros into the channels from 256 on. Each store agrees, at every
  position it covers, with one function of the input block — the channel-grouped shift with zero fill
  (Proof/ShiftSpec.lean, at batch extent 1) — so the block read back after the nine stores is that function.
-/
import proofs.«152308_j34110630265566_1_alg».proof.Proof.KernelPiece
import Idealize.ShloMosaic.Lib.Tactic

noncomputable section

namespace Cert.KernelIdeal.BlockValue

open Cert.KernelIdeal Cert.KernelIdeal.Gen Idealize.ShloMosaic Idealize.ShloMosaic.TcCoe Idealize.ShloMosaic.ValueIdx
open Cert.ShiftSpec

variable {F : FTy → Type} [FloatOps F]

/-- The zero the body stores: the float whose word is all zeros. -/
abbrev zero : Elt F EltTy.f32 := (Scalar.ofBits FTy.f32 0x00000000#32 : F FTy.f32)

/-- The ninth store: zeros into channels 256 to 287, which is the shifted block there. -/
theorem rest_piece (x : Vec F S1x288x64x64 .f32)
    (inbI : ∀ a, (![0, 256, 0, 0] : Fin 4 → Nat) a + (![1, 32, 64, 64] : Fin 4 → Nat) a ≤ S1x288x64x64.size a)
    (y : (⟨4, ![1, 32, 64, 64]⟩ : Shape).Idx) :
    (k0_pay4 (F := F)) y
      = shifted (zero (F := F)) x ((Rect.unit (s := S1x288x64x64) ![0, 256, 0, 0] ![1, 32, 64, 64] inbI).emb y) := by
  obtain ⟨u, k, h, w, rfl⟩ : ∃ (u : Fin 1) (k : Fin 32) (h w : Fin 64), y = ix4 u k h w := ⟨y 0, y 1, y 2, y 3, eq_ix4 y⟩
  have hu : u.val = 0 := by omega
  have eO : (Rect.unit (s := S1x288x64x64) ![0, 256, 0, 0] ![1, 32, 64, 64] inbI).emb (ix4 u k h w)
      = ix4 (0 : Fin 1) (⟨256 + k.val, by omega⟩ : Fin 288) h w :=
    funext fun a => Fin.ext (by
      match a with
      | ⟨0, _⟩ => show 0 + 1 * u.val = 0; omega
      | ⟨1, _⟩ => show 256 + 1 * k.val = 256 + k.val; omega
      | ⟨2, _⟩ => show 0 + 1 * h.val = h.val; omega
      | ⟨3, _⟩ => show 0 + 1 * w.val = w.val; omega)
  rw [eO, shifted_apply, shiftAt_rest _ _ _ _ _ _ (by show 256 ≤ 256 + k.val; omega)]
  rfl

/-- THE OUTPUT BLOCK after the body: the channel-grouped shift, with zero fill, of the input block `x` — whatever the
    staging buffers and the scratch buffer held before. -/
theorem out_block (c : Dev nD) (i : grid0.Coords) (a1 : Memref sig .tc .vmem S1x288x64x64 .f32) (h1 : a1.IsWhole)
    (a2 : Memref sig .tc .vmem S1x288x64x64 .f32) (h2 : a2.IsWhole) (a3 : Memref sig .tc .vmem S32x66x66 .f32)
    (h3 : a3.IsWhole) (x : Vec F S1x288x64x64 .f32) :
    out0_A_1 c i a1 h1 a2 h2 a3 h3 x = shifted (zero (F := F)) x := by
  funext y
  unfold out0_A_1
  refine View.read_writes_apply_of_pieces VO0_1 VO0_1.junk (shifted (zero (F := F)) x) _ ?_ y
    (cover0_A_1 c i a1 h1 a2 h2 a3 h3 x y)
  unfold kernelRun0_A
  dsimp only
  sl_unfold_words
  intro p hp
  rcases List.mem_cons.mp hp with rfl | hp
  · intro j; exact rest_piece x inb_S1x288x64x64_S1x32x64x64_0_256_0_0 j
  rcases List.mem_cons.mp hp with rfl | hp
  · intro j
    exact group_piece a1 h1 a3.view x zero 7 224 2 2 (by decide) rfl rfl rfl _ (fun _ => rfl) _
      inb_S1x288x64x64_S1x32x64x64_0_224_0_0 inb_S32x66x66_S32x64x64_0_1_1 inb_S32x66x66_S32x66x66_0_0_0
      inb_S32x66x66_S32x64x64_0_2_2 shapeCasts_S1x32x64x64_S32x64x64 shapeCasts_S32x64x64_S32x64x64
      shapeCasts_S32x64x64_S1x32x64x64 j
  rcases List.mem_cons.mp hp with rfl | hp
  · intro j
    exact group_piece a1 h1 a3.view x zero 6 192 2 0 (by decide) rfl rfl rfl _ (fun _ => rfl) _
      inb_S1x288x64x64_S1x32x64x64_0_192_0_0 inb_S32x66x66_S32x64x64_0_1_1 inb_S32x66x66_S32x66x66_0_0_0
      inb_S32x66x66_S32x64x64_0_2_0 shapeCasts_S1x32x64x64_S32x64x64 shapeCasts_S32x64x64_S32x64x64
      shapeCasts_S32x64x64_S1x32x64x64 j
  rcases List.mem_cons.mp hp with rfl | hp
  · intro j
    exact group_piece a1 h1 a3.view x zero 5 160 0 2 (by decide) rfl rfl rfl _ (fun _ => rfl) _
      inb_S1x288x64x64_S1x32x64x64_0_160_0_0 inb_S32x66x66_S32x64x64_0_1_1 inb_S32x66x66_S32x66x66_0_0_0
      inb_S32x66x66_S32x64x64_0_0_2 shapeCasts_S1x32x64x64_S32x64x64 shapeCasts_S32x64x64_S32x64x64
      shapeCasts_S32x64x64_S1x32x64x64 j
  rcases List.mem_cons.mp hp with rfl | hp
  · intro j
    exact group_piece a1 h1 a3.view x zero 4 128 0 0 (by decide) rfl rfl rfl _ (fun _ => rfl) _
      inb_S1x288x64x64_S1x32x64x64_0_128_0_0 inb_S32x66x66_S32x64x64_0_1_1 inb_S32x66x66_S32x66x66_0_0_0
      inb_S32x66x66_S32x64x64_0_0_0 shapeCasts_S1x32x64x64_S32x64x64 shapeCasts_S32x64x64_S32x64x64
      shapeCasts_S32x64x64_S1x32x64x64 j
  rcases List.mem_cons.mp hp with rfl | hp
  · intro j
    exact group_piece a1 h1 a3.view x zero 3 96 1 2 (by decide) rfl rfl rfl _ (fun _ => rfl) _
      inb_S1x288x64x64_S1x32x64x64_0_96_0_0 inb_S32x66x66_S32x64x64_0_1_1 inb_S32x66x66_S32x66x66_0_0_0
      inb_S32x66x66_S32x64x64_0_1_2 shapeCasts_S1x32x64x64_S32x64x64 shapeCasts_S32x64x64_S32x64x64
      shapeCasts_S32x64x64_S1x32x64x64 j
  rcases List.mem_cons.mp hp with rfl | hp
  · intro j
    exact group_piece a1 h1 a3.view x zero 2 64 1 0 (by decide) rfl rfl rfl _ (fun _ => rfl) _
      inb_S1x288x64x64_S1x32x64x64_0_64_0_0 inb_S32x66x66_S32x64x64_0_1_1 inb_S32x66x66_S32x66x66_0_0_0
      inb_S32x66x66_S32x64x64_0_1_0 shapeCasts_S1x32x64x64_S32x64x64 shapeCasts_S32x64x64_S32x64x64
      shapeCasts_S32x64x64_S1x32x64x64 j
  rcases List.mem_cons.mp hp with rfl | hp
  · intro j
    exact group_piece a1 h1 a3.view x zero 1 32 2 1 (by decide) rfl rfl rfl _ (fun _ => rfl) _
      inb_S1x288x64x64_S1x32x64x64_0_32_0_0 inb_S32x66x66_S32x64x64_0_1_1 inb_S32x66x66_S32x66x66_0_0_0
      inb_S32x66x66_S32x64x64_0_2_1 shapeCasts_S1x32x64x64_S32x64x64 shapeCasts_S32x64x64_S32x64x64
      shapeCasts_S32x64x64_S1x32x64x64 j
  rcases List.mem_cons.mp hp with rfl | hp
  · intro j
    exact group_piece a1 h1 a3.view x zero 0 0 0 1 (by decide) rfl rfl rfl _ (fun _ => rfl) _
      inb_S1x288x64x64_S1x32x64x64_0_0_0_0 inb_S32x66x66_S32x64x64_0_1_1 inb_S32x66x66_S32x66x66_0_0_0
      inb_S32x66x66_S32x64x64_0_0_1 shapeCasts_S1x32x64x64_S32x64x64 shapeCasts_S32x64x64_S32x64x64
      shapeCasts_S32x64x64_S1x32x64x64 j
  exact absurd hp List.not_mem_nil

end Cert.KernelIdeal.BlockValue

end
-- ==== Proof.KernelArray.lean ====
/-
  From the output blocks to the output array.

  The grid has one point per batch entry; point `t` stages batch entry `t` of the input (a 1 × 288 × 64 × 64 block), runs
  the body, and writes the output block back to batch entry `t` of the result. The body leaves the shift of the input
  block (Proof/KernelBlock.lean), and the shift acts on each batch entry by itself, so what point `t` writes back is
  block `t` of the shift of the whole input array. The 32 blocks tile the result array — index `(b, c, h, w)` lies in
  the block of point `b` — so after the run the result array is the shift of the input array.
-/
import proofs.«152308_j34110630265566_1_alg».proof.Proof.Gen.KernelIdeal.Value
import proofs.«152308_j34110630265566_1_alg».proof.Proof.KernelBlock

noncomputable section

namespace Cert.KernelIdeal.ArrayValue

open Cert.KernelIdeal Cert.KernelIdeal.Gen Idealize.ShloMosaic Idealize.ShloMosaic.TcCoe Idealize.SL.Sem
open Idealize.ShloMosaic.ValueIdx Cert.ShiftSpec Cert.KernelIdeal.BlockValue
open Idealize.ShloMosaic.Pipeline (Dat)

variable {F : FTy → Type} [FloatOps F]
variable (m : (ℓ : Loc nD τ sig) → Buf (Elt F) ℓ) (ρ : Dev nD → PrngReg)

/-- Both windows' block index at point `t` is `(t, 0, 0, 0)`: decided over the 32 points. -/
theorem idx_facts : ∀ t : Fin cfg0.N,
    (win0_0.index t (0 : Fin 4) = t.val ∧ win0_0.index t (1 : Fin 4) = 0 ∧ win0_0.index t (2 : Fin 4) = 0
      ∧ win0_0.index t (3 : Fin 4) = 0)
    ∧ (win0_1.index t (0 : Fin 4) = t.val ∧ win0_1.index t (1 : Fin 4) = 0 ∧ win0_1.index t (2 : Fin 4) = 0
      ∧ win0_1.index t (3 : Fin 4) = 0) :=
  (by decide +kernel : ∀ t : Fin grid0.N, _)

/-- The input array as the region finds it, and its shift: what the result array will hold. -/
abbrev result (c : Dev nD) : S32x288x64x64.Idx → Elt F EltTy.f32 :=
  shifted (zero (F := F)) (V m c main_arg0 : S32x288x64x64.Idx → Elt F EltTy.f32)

/-- The input window's block at point `t` is batch entry `t` of the input array. -/
theorem iblk_apply (c : Dev nD) (t : Fin cfg0.N) (k : Fin 288) (h w : Fin 64) :
    (iblk m c 0 t : S1x288x64x64.Idx → Elt F EltTy.f32) (ix4 (0 : Fin 1) k h w)
      = (V m c main_arg0 : S32x288x64x64.Idx → Elt F EltTy.f32) (ix4 (⟨t.val, t.isLt.trans_eq N_0⟩ : Fin 32) k h w) := by
  obtain ⟨⟨e0, e1, e2, e3⟩, -⟩ := idx_facts t
  unfold iblk
  rw [View.read_apply]
  show V m c main_arg0 _ = V m c main_arg0 _
  refine congrArg (V m c main_arg0) (funext fun a => Fin.ext ?_)
  match a with
  | ⟨0, _⟩ => show win0_0.index t (0 : Fin 4) * 1 + 1 * 0 = t.val; omega
  | ⟨1, _⟩ => show win0_0.index t (1 : Fin 4) * 288 + 1 * k.val = k.val; omega
  | ⟨2, _⟩ => show win0_0.index t (2 : Fin 4) * 64 + 1 * h.val = h.val; omega
  | ⟨3, _⟩ => show win0_0.index t (3 : Fin 4) * 64 + 1 * w.val = w.val; omega

/-- WHAT POINT `t` WRITES BACK is block `t` of the shift of the input array. -/
theorem flushed_eq (c : Dev nD) (t : Fin cfg0.N) :
    (dats m 0 c).flushed 1 t = ((cfg0.win 1).blk t).view.read (Elt F) (result m c) := by
  obtain ⟨-, ⟨e0, e1, e2, e3⟩⟩ := idx_facts t
  rw [Value.flushed1_A, out_block]
  funext j
  rw [View.read_apply]
  have hj0 : (j 0).val < 1 := (j 0).isLt
  have hj1 : (j 1).val < 288 := (j 1).isLt
  have hj2 : (j 2).val < 64 := (j 2).isLt
  have hj3 : (j 3).val < 64 := (j 3).isLt
  have eL : ((cfg0.win 1).xinj (grid0.coords t) j : S1x288x64x64.Idx)
      = ix4 (⟨(j 0).val, hj0⟩ : Fin 1) (⟨(j 1).val, hj1⟩ : Fin 288) (⟨(j 2).val, hj2⟩ : Fin 64) (⟨(j 3).val, hj3⟩ : Fin 64) :=
    funext fun a => Fin.ext (by
      match a with
      | ⟨0, _⟩ => rfl
      | ⟨1, _⟩ => rfl
      | ⟨2, _⟩ => rfl
      | ⟨3, _⟩ => rfl)
  have eR : (((cfg0.win 1).blk t).view.emb j : S32x288x64x64.Idx)
      = ix4 (⟨t.val, t.isLt.trans_eq N_0⟩ : Fin 32) (⟨(j 1).val, hj1⟩ : Fin 288) (⟨(j 2).val, hj2⟩ : Fin 64)
          (⟨(j 3).val, hj3⟩ : Fin 64) :=
    funext fun a => Fin.ext (by
      match a with
      | ⟨0, _⟩ => show win0_1.index t (0 : Fin 4) * 1 + 1 * (j 0).val = t.val; omega
      | ⟨1, _⟩ => show win0_1.index t (1 : Fin 4) * 288 + 1 * (j 1).val = (j 1).val; omega
      | ⟨2, _⟩ => show win0_1.index t (2 : Fin 4) * 64 + 1 * (j 2).val = (j 2).val; omega
      | ⟨3, _⟩ => show win0_1.index t (3 : Fin 4) * 64 + 1 * (j 3).val = (j 3).val; omega)
  show shifted (zero (F := F)) (iblk m c 0 t : S1x288x64x64.Idx → Elt F EltTy.f32) ((cfg0.win 1).xinj (grid0.coords t) j)
    = result m c (((cfg0.win 1).blk t).view.emb j)
  rw [eL, eR]
  exact (shifted_block (zero (F := F)) (V m c main_arg0 : S32x288x64x64.Idx → Elt F EltTy.f32)
    (iblk m c 0 t : S1x288x64x64.Idx → Elt F EltTy.f32) ⟨t.val, t.isLt.trans_eq N_0⟩ (iblk_apply m c t) _ _ _ _).symm

/-- An index of the result array is in point `t`'s block iff each coordinate is in the block's range on its axis. -/
theorem mem_blk (t : Fin cfg0.N) (i : S32x288x64x64.Idx) :
    i ∈ ((cfg0.win 1).blk t).view.set ↔ ∀ a : Fin 4, win0_1.index t a * S1x288x64x64.size a ≤ (i a).val
      ∧ (i a).val < win0_1.index t a * S1x288x64x64.size a + S1x288x64x64.size a := by
  show i ∈ ((View.whole main_v0).slice (win0_1.rect t)).set ↔ _
  rw [View.set_slice_whole, Rect.mem_set_unit]
  exact Iff.rfl

/-- THE RESULT ARRAY after the run is the shift of the input array: the point of an index's batch entry covers it. -/
theorem final (c : Dev nD) : (dats m 0 c).arrAt 1 cfg0.N = result m c :=
  (dats m 0 c).arrAt_eq_of_cover 1 (result m c) (fun t _ => flushed_eq m c t) fun i => by
    have hi0 : (i 0).val < 32 := (i 0).isLt
    have hi1 : (i 1).val < 288 := (i 1).isLt
    have hi2 : (i 2).val < 64 := (i 2).isLt
    have hi3 : (i 3).val < 64 := (i 3).isLt
    let t : Fin cfg0.N := ⟨(i 0).val, hi0.trans_eq N_0.symm⟩
    obtain ⟨-, ⟨e0, e1, e2, e3⟩⟩ := idx_facts t
    have ht : t.val = (i 0).val := rfl
    refine ⟨t, flush0_1 t, ?_⟩
    rw [mem_blk]
    intro a
    match a with
    | ⟨0, _⟩ => show win0_1.index t (0 : Fin 4) * 1 ≤ (i 0).val ∧ (i 0).val < win0_1.index t (0 : Fin 4) * 1 + 1; omega
    | ⟨1, _⟩ => show win0_1.index t (1 : Fin 4) * 288 ≤ (i 1).val ∧ (i 1).val < win0_1.index t (1 : Fin 4) * 288 + 288; omega
    | ⟨2, _⟩ => show win0_1.index t (2 : Fin 4) * 64 ≤ (i 2).val ∧ (i 2).val < win0_1.index t (2 : Fin 4) * 64 + 64; omega
    | ⟨3, _⟩ => show win0_1.index t (3 : Fin 4) * 64 ≤ (i 3).val ∧ (i 3).val < win0_1.index t (3 : Fin 4) * 64 + 64; omega

/-- THE KERNEL'S RUN, read: every weakly fair execution terminates with the result array at the shift of the argument
    array, and the argument unchanged. -/
theorem run : θ_run defs (onTc (τ := τ) (main (F := F))) ⟨m, fun _ => 0, ρ⟩ fun r => ∀ c : Dev nD,
      r.2.mem ((c : Thread nD τ).loc main_v0) = result m c
      ∧ r.2.mem ((c : Thread nD τ).loc main_arg0) = m ((c : Thread nD τ).loc main_arg0) :=
  (θ_run defs _ _).mono (fun r h c => ⟨(h c).1.trans (final m c), (h c).2⟩) (Value.run_blocks m ρ)

end Cert.KernelIdeal.ArrayValue

end
-- ==== Proof.RefShift.lean ====
/-
  The reference computes the channel-grouped shift.

  The reference pads the array by one row and one column of zeros on every side of the two spatial axes, takes for each
  of the eight groups the 32 × 64 × 64 window of the padded array at the group's offsets `(offH g, offW g)`, and joins
  the eight windows and a block of zeros along the channel axis. Read at `(b, c, h, w)`: the joined array is piece
  `c / 32` at channel `c % 32`; a window at `(h, w)` is the padded array at `(offH g + h, offW g + w)`; and the padded array
  is `padRead` of Proof/ShiftSpec.lean. So the result is `shifted` with the reference's zero.

  The padding value is the integer 0 converted to a float, the ninth block the float whose word is zero: two spellings
  of the extended real 0.
-/
import proofs.«152308_j34110630265566_1_alg».proof.Proof.Gen.ReferenceIdeal.Read
import proofs.«152308_j34110630265566_1_alg».proof.Proof.ShiftSpec
import Idealize.ShloMosaic.Lib.KernelVsHost
import Idealize.ShloMosaic.Lib.Pipeline.Value
import Idealize.ShloMosaic.Lib.ValueIdx
import Idealize.ShloMosaic.PureOps.Ideal.Laws

noncomputable section

namespace Cert.ReferenceIdeal.RefValue

open Cert.ReferenceIdeal Cert.ReferenceIdeal.Read Idealize.ShloMosaic Idealize.ShloMosaic.ValueIdx Cert.ShiftSpec

variable {F : FTy → Type} [FloatOps F]

/-- The padding value: the integer zero converted to a float. -/
abbrev padZero : Elt F EltTy.f32 := (FloatOps.sitofp FTy.f32 (0#32 : BitVec 32) : F FTy.f32)

/-- The padded array at `(b, c, hp, wp)` is the array at `(b, c, hp - 1, wp - 1)` inside the frame and the padding value
    on it. -/
theorem pad_read (X : S32x288x64x64.Idx → Elt F EltTy.f32) (b : Fin 32) (c : Fin 288) (hp wp : Fin 66) :
    val_main_v0 (F := F) X (ix4 b c hp wp) = padRead (padZero (F := F)) X b c hp.val wp.val := by
  unfold val_main_v0
  by_cases hin : (1 ≤ hp.val ∧ hp.val ≤ 64) ∧ (1 ≤ wp.val ∧ wp.val ≤ 64)
  · rw [padRead_inside _ _ _ _ _ _ hin]
    exact pad_apply_of_inside _ _ _ X _ _ _ (ix4 b c hp wp) (ix4 b c ⟨hp.val - 1, by omega⟩ ⟨wp.val - 1, by omega⟩)
      (fun a => by
        match a with
        | ⟨0, _⟩ => show b.val = 0 + b.val * (0 + 1); omega
        | ⟨1, _⟩ => show c.val = 0 + c.val * (0 + 1); omega
        | ⟨2, _⟩ => show hp.val = 1 + (hp.val - 1) * (0 + 1); omega
        | ⟨3, _⟩ => show wp.val = 1 + (wp.val - 1) * (0 + 1); omega)
  · rw [padRead_frame _ _ _ _ _ _ hin]
    by_cases h2 : 1 ≤ hp.val ∧ hp.val ≤ 64
    · refine (pad_apply_of_not_inside _ _ _ X _ _ _ (ix4 b c hp wp) (⟨3, by decide⟩ : Fin 4) ?_).trans rfl
      show ¬(1 ≤ wp.val ∧ (wp.val - 1) % (0 + 1) = 0 ∧ (wp.val - 1) / (0 + 1) < 64)
      omega
    · refine (pad_apply_of_not_inside _ _ _ X _ _ _ (ix4 b c hp wp) (⟨2, by decide⟩ : Fin 4) ?_).trans rfl
      show ¬(1 ≤ hp.val ∧ (hp.val - 1) % (0 + 1) = 0 ∧ (hp.val - 1) / (0 + 1) < 64)
      omega

/-- A 32 × 32 × 64 × 64 window of the padded array at channel offset `co` and spatial offsets `(oh, ow)`, read at
    `(b, k, h, w)`: the padded image of channel `co + k` at `(oh + h, ow + w)`. -/
theorem window_read (X : S32x288x64x64.Idx → Elt F EltTy.f32) (co oh ow : Nat) (hco : co + 32 ≤ 288) (hoh : oh ≤ 2)
    (how : ow ≤ 2) (hs : S32x288x66x66.Slices ![0, co, oh, ow] S32x32x64x64) (b k : Fin 32) (h w : Fin 64)
    (c : Fin 288) (hc : c.val = co + k.val) :
    extractStridedSlice S32x32x64x64 ![0, co, oh, ow] (val_main_v0 (F := F) X) hs (ix4 b k h w)
      = padRead (padZero (F := F)) X b c (oh + h.val) (ow + w.val) := by
  rw [extractStridedSlice_apply _ _ hs (ix4 b k h w)
    (ix4 b c (⟨oh + h.val, by omega⟩ : Fin 66) (⟨ow + w.val, by omega⟩ : Fin 66))
    (fun a => by
      match a with
      | ⟨0, _⟩ => show b.val = 0 + b.val; omega
      | ⟨1, _⟩ => exact hc
      | ⟨2, _⟩ => rfl
      | ⟨3, _⟩ => rfl)]
  exact pad_read X b c _ _

/-- The array joined along the channel axis from pieces of 32 channels each, read at channel `32 k + r`: piece `k` at
    channel `r`, the other coordinates kept. -/
theorem concat_read {α : Type} (xs : List ((s : Shape) × (s.Idx → α)))
    (hcat : Shape.Concatenates (xs.map (·.1)) S32x288x64x64 1)
    (k : Nat) (hk : k < xs.length) (v : S32x32x64x64.Idx → α) (hxk : xs[k] = ⟨S32x32x64x64, v⟩)
    (hpre : (((xs.take k).map (·.1)).map fun s =>
      if h : s.rank = S32x288x64x64.rank then s.size ((1 : Fin S32x288x64x64.rank).cast h.symm) else 0).sum = 32 * k)
    (b : Fin 32) (c : Fin 288) (h w : Fin 64) (r : Fin 32) (hcr : c.val = 32 * k + r.val) :
    concatenate S32x288x64x64 1 xs hcat (ix4 b c h w) = v (ix4 b r h w) :=
  concatenate_apply_piece 1 xs hcat (ix4 b c h w) k hk S32x32x64x64 v hxk rfl (32 * k) hpre (ix4 b r h w)
    (fun a hne => by
      match a with
      | ⟨0, _⟩ => rfl
      | ⟨1, _⟩ => exact absurd rfl hne
      | ⟨2, _⟩ => rfl
      | ⟨3, _⟩ => rfl)
    (by show 32 * k + r.val = c.val; omega)

/-! ## At the extended reals -/

/-- The integer zero converted is the extended real 0. -/
theorem padZero_ideal : padZero (F := Ideal) = (0 : EReal) := by
  show ((((0#32 : BitVec 32).toInt : ℝ)) : EReal) = 0
  simp

/-- The float whose word is zero is the padding value: both are the extended real 0. -/
theorem zeroWord_ideal : (FloatOps.ofBits (F := Ideal) FTy.f32 0x00000000#32 : Elt Ideal EltTy.f32) = padZero (F := Ideal) := by
  rw [padZero_ideal]
  exact Ideal.ofBits_zero_f32

/-- THE REFERENCE'S RESULT, at the extended reals, is the channel-grouped shift of its argument with fill 0. -/
theorem ref_eq (X : S32x288x64x64.Idx → Elt Ideal EltTy.f32) :
    val_main_v10 (F := Ideal) X = shifted (padZero (F := Ideal)) X := by
  funext j
  obtain ⟨b, c, h, w, rfl⟩ : ∃ (b : Fin 32) (c : Fin 288) (h w : Fin 64), j = ix4 b c h w := ⟨j 0, j 1, j 2, j 3, eq_ix4 j⟩
  rw [shifted_apply]
  unfold val_main_v10
  have hc := c.isLt
  obtain ⟨k, r, hk, hr, hcr⟩ : ∃ k r, k < 9 ∧ r < 32 ∧ c.val = 32 * k + r :=
    ⟨c.val / 32, c.val % 32, by omega, Nat.mod_lt _ (by decide), by omega⟩
  obtain rfl | rfl | rfl | rfl | rfl | rfl | rfl | rfl | rfl :
      k = 0 ∨ k = 1 ∨ k = 2 ∨ k = 3 ∨ k = 4 ∨ k = 5 ∨ k = 6 ∨ k = 7 ∨ k = 8 := by omega
  · rw [concat_read _ _ 0 (by show 0 < 9; omega) (val_main_v1 X) rfl rfl b c h w ⟨r, hr⟩ hcr,
      shiftAt_group _ _ _ _ _ _ 0 (by decide) (by omega)]
    exact window_read X 0 0 1 (by decide) (by decide) (by decide) _ b ⟨r, hr⟩ h w c (by show c.val = 0 + r; omega)
  · rw [concat_read _ _ 1 (by show 1 < 9; omega) (val_main_v2 X) rfl rfl b c h w ⟨r, hr⟩ hcr,
      shiftAt_group _ _ _ _ _ _ 1 (by decide) (by omega)]
    exact window_read X 32 2 1 (by decide) (by decide) (by decide) _ b ⟨r, hr⟩ h w c (by show c.val = 32 + r; omega)
  · rw [concat_read _ _ 2 (by show 2 < 9; omega) (val_main_v3 X) rfl rfl b c h w ⟨r, hr⟩ hcr,
      shiftAt_group _ _ _ _ _ _ 2 (by decide) (by omega)]
    exact window_read X 64 1 0 (by decide) (by decide) (by decide) _ b ⟨r, hr⟩ h w c (by show c.val = 64 + r; omega)
  · rw [concat_read _ _ 3 (by show 3 < 9; omega) (val_main_v4 X) rfl rfl b c h w ⟨r, hr⟩ hcr,
      shiftAt_group _ _ _ _ _ _ 3 (by decide) (by omega)]
    exact window_read X 96 1 2 (by decide) (by decide) (by decide) _ b ⟨r, hr⟩ h w c (by show c.val = 96 + r; omega)
  · rw [concat_read _ _ 4 (by show 4 < 9; omega) (val_main_v5 X) rfl rfl b c h w ⟨r, hr⟩ hcr,
      shiftAt_group _ _ _ _ _ _ 4 (by decide) (by omega)]
    exact window_read X 128 0 0 (by decide) (by decide) (by decide) _ b ⟨r, hr⟩ h w c (by show c.val = 128 + r; omega)
  · rw [concat_read _ _ 5 (by show 5 < 9; omega) (val_main_v6 X) rfl rfl b c h w ⟨r, hr⟩ hcr,
      shiftAt_group _ _ _ _ _ _ 5 (by decide) (by omega)]
    exact window_read X 160 0 2 (by decide) (by decide) (by decide) _ b ⟨r, hr⟩ h w c (by show c.val = 160 + r; omega)
  · rw [concat_read _ _ 6 (by show 6 < 9; omega) (val_main_v7 X) rfl rfl b c h w ⟨r, hr⟩ hcr,
      shiftAt_group _ _ _ _ _ _ 6 (by decide) (by omega)]
    exact window_read X 192 2 0 (by decide) (by decide) (by decide) _ b ⟨r, hr⟩ h w c (by show c.val = 192 + r; omega)
  · rw [concat_read _ _ 7 (by show 7 < 9; omega) (val_main_v8 X) rfl rfl b c h w ⟨r, hr⟩ hcr,
      shiftAt_group _ _ _ _ _ _ 7 (by decide) (by omega)]
    exact window_read X 224 2 2 (by decide) (by decide) (by decide) _ b ⟨r, hr⟩ h w c (by show c.val = 224 + r; omega)
  · rw [concat_read _ _ 8 (by show 8 < 9; omega) (val_main_v9 (F := Ideal)) rfl rfl b c h w ⟨r, hr⟩ hcr,
      shiftAt_rest _ _ _ _ _ _ (by omega), val_main_v9_apply, val_main_cst_apply]
    exact zeroWord_ideal

end Cert.ReferenceIdeal.RefValue

end
-- ==== Proof.Claims.lean ====
/-
  The five claims.

  The kernel, at the extended reals, ends with its result array at the channel-grouped shift of its argument with the
  fill the body stores, the float whose word is zero (Proof/KernelArray.lean); the reference ends with its result at
  the same shift with the fill it pads with, the integer zero converted (Proof/RefShift.lean). Both fills are the
  extended real 0, and the two programs start from the same argument array: the results are equal. No arithmetic is
  done on the entries, so the finiteness of the input is never used.

  The three frames are the generated ones (the reference's is its generated run with the result dropped); the ideal
  pass rewrote nothing, so there is nothing to preserve.
-/
import proofs.«152308_j34110630265566_1_alg».proof.Defs
import proofs.«152308_j34110630265566_1_alg».proof.Proof.Gen.Kernel.Frame
import proofs.«152308_j34110630265566_1_alg».proof.Proof.Gen.KernelIdeal.Frame
import proofs.«152308_j34110630265566_1_alg».proof.Proof.Gen.ReferenceIdeal.Run
import proofs.«152308_j34110630265566_1_alg».proof.Proof.Gen.Pre_finite_inputs
import proofs.«152308_j34110630265566_1_alg».proof.Proof.KernelArray
import proofs.«152308_j34110630265566_1_alg».proof.Proof.RefShift

noncomputable section

open Idealize.ShloMosaic Idealize.ShloMosaic.TcCoe Idealize.SL.Sem

namespace Cert.Proof.ShiftClaims

theorem frame_k : Cert.frame_Kernel := fun m ρ _ => Cert.Kernel.Gen.frame m ρ

theorem frame_ki : Cert.frame_KernelIdeal := fun m ρ _ => Cert.KernelIdeal.Gen.frame m ρ

theorem frame_ri : Cert.frame_ReferenceIdeal := fun m ρ _ =>
  (θ_run Cert.ReferenceIdeal.defs _ _).mono (fun _ h c => (h c).2) (Cert.ReferenceIdeal.Value.run (F := Ideal) m ρ)

theorem preserves : Cert.preserves_Kernel_KernelIdeal := trivial

/-- The kernel's fill and the reference's are one extended real. -/
theorem fill_eq : Cert.KernelIdeal.BlockValue.zero (F := Ideal) = Cert.ReferenceIdeal.RefValue.padZero (F := Ideal) :=
  Cert.ReferenceIdeal.RefValue.zeroWord_ideal

/-- From memories agreeing on the argument, both programs end with the shift of that argument, with fill 0. -/
theorem algebraic : Cert.algebraic_KernelIdeal_ReferenceIdeal := by
  intro m ρ m' ρ' _ hagree
  refine ⟨fun c => Cert.KernelIdeal.ArrayValue.result (F := Ideal) m c, Cert.KernelIdeal.ArrayValue.run (F := Ideal) m ρ, ?_⟩
  refine (θ_run Cert.ReferenceIdeal.defs _ _).mono (fun _ h c => ⟨(h c).1.trans ?_, (h c).2⟩)
    (Cert.ReferenceIdeal.Value.run (F := Ideal) m' ρ')
  rw [Cert.ReferenceIdeal.Read.val_main_v10_eq, Cert.ReferenceIdeal.RefValue.ref_eq, hagree c, ← fill_eq]

end Cert.Proof.ShiftClaims

end
-- ==== Proof.lean ====
/-
  The certificate of the channel-grouped spatial shift: the Pallas kernel, which for each batch entry builds every
  group's zero-padded image in a scratch buffer and copies a translated window of it out, against the reference, which
  pads the whole array once, slices the eight translated windows and joins them with a block of zeros. Both compute one
  function of the argument array (Proof/ShiftSpec.lean); the modules under Proof/ read it off each program, and
  Proof/Claims.lean states the five claims.
-/
import proofs.«152308_j34110630265566_1_alg».proof.Defs
import proofs.«152308_j34110630265566_1_alg».proof.Proof.Claims
import proofs.«152308_j34110630265566_1_alg».proof.Proof.Gen.Kernel
import proofs.«152308_j34110630265566_1_alg».proof.Proof.Gen.Kernel.Skeleton
import proofs.«152308_j34110630265566_1_alg».proof.Proof.Gen.Kernel.Launch
import proofs.«152308_j34110630265566_1_alg».proof.Proof.Gen.Kernel.Points
import proofs.«152308_j34110630265566_1_alg».proof.Proof.Gen.Kernel.Frame
import proofs.«152308_j34110630265566_1_alg».proof.Proof.Gen.KernelIdeal
import proofs.«152308_j34110630265566_1_alg».proof.Proof.Gen.KernelIdeal.Skeleton
import proofs.«152308_j34110630265566_1_alg».proof.Proof.Gen.KernelIdeal.Launch
import proofs.«152308_j34110630265566_1_alg».proof.Proof.Gen.KernelIdeal.Points
import proofs.«152308_j34110630265566_1_alg».proof.Proof.Gen.KernelIdeal.Frame
import proofs.«152308_j34110630265566_1_alg».proof.Proof.Gen.ReferenceIdeal
import proofs.«152308_j34110630265566_1_alg».proof.Proof.Gen.Pre_finite_inputs
import proofs.«152308_j34110630265566_1_alg».proof.Proof.Gen.KernelIdeal.Value
import proofs.«152308_j34110630265566_1_alg».proof.Proof.Gen.ReferenceIdeal.Run
import proofs.«152308_j34110630265566_1_alg».proof.Proof.Gen.ReferenceIdeal.Read
import Idealize.ShloMosaic.Adequacy
import Idealize.ShloMosaic.Init

noncomputable section

namespace Cert.Proof

open Idealize.ShloMosaic Idealize.SL.Sem

theorem claim : Cert.Claim :=
  ⟨Cert.Kernel.Gen.facts, Cert.KernelIdeal.Gen.facts, Cert.ReferenceIdeal.Gen.facts, Cert.Pre_finite_inputs.Gen.facts,
    ShiftClaims.frame_k, ShiftClaims.frame_ki, ShiftClaims.frame_ri, ShiftClaims.preserves, ShiftClaims.algebraic⟩

end Cert.Proof

end
